-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x4 : Shape := ⟨2, ![1000000, 4]⟩
abbrev S2x16000000 : Shape := ⟨2, ![2, 16000000]⟩
abbrev S16000000x3 : Shape := ⟨2, ![16000000, 3]⟩
abbrev S3x1 : Shape := ⟨2, ![3, 1]⟩
abbrev S1 : Shape := ⟨1, ![1]⟩
abbrev S5x1 : Shape := ⟨2, ![5, 1]⟩
abbrev S_ : Shape := ⟨0, ![]⟩

class Facts : Prop where
  bcast_S_S1000000x4 : S_.BroadcastsInDim S1000000x4 (![] : Fin 0 → Fin S1000000x4.rank)
  reducesTo_S1000000x4_S_d0_1 : S1000000x4.ReducesTo [0, 1] S_
  h_S_ : 0 < S_.numel
  bcast_S_S16000000x3 : S_.BroadcastsInDim S16000000x3 (![] : Fin 0 → Fin S16000000x3.rank)
  reducesTo_S16000000x3_S_d0_1 : S16000000x3.ReducesTo [0, 1] S_
  bcast_S_S3x1 : S_.BroadcastsInDim S3x1 (![] : Fin 0 → Fin S3x1.rank)
  reducesTo_S3x1_S_d0_1 : S3x1.ReducesTo [0, 1] S_
  bcast_S_S1 : S_.BroadcastsInDim S1 (![] : Fin 0 → Fin S1.rank)
  reducesTo_S1_S_d0 : S1.ReducesTo [0] S_
  bcast_S_S5x1 : S_.BroadcastsInDim S5x1 (![] : Fin 0 → Fin S5x1.rank)
  reducesTo_S5x1_S_d0_1 : S5x1.ReducesTo [0, 1] S_

variable [Facts]

def fn_part1 {F : FTy → Type} [FloatOps F] (main_arg5 : FVec F S5x1 .f32) (main_arg6 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S5x1 .f32 := Host.absf main_arg5
  let main_cst_6 : FVec F S_ .f32 := constant S_ .f32 0x7F800000#32
  let main_v20 : FVec F S5x1 .f32 := broadcastInDim S5x1 ![] bcast_S_S5x1 main_cst_6
  let main_v21 : IVec S5x1 1 := cmpf .olt main_v19 main_v20
  let main_c_7 : IVec S_ 1 := constantI S_ 1 1#1
  let main_v22 : IVec S_ 1 := (fun x v => Host.reduce IntOp.andi x v reducesTo_S5x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S1000000x4 .f32) (main_arg1 : IVec S2x16000000 32) (main_arg2 : FVec F S16000000x3 .f32) (main_arg3 : FVec F S3x1 .f32) (main_arg4 : FVec F S1 .f32) (main_arg5 : FVec F S5x1 .f32) (main_arg6 : FVec F S1 .f32) : IVec S_ 1 :=
  let main_v0 : FVec F S1000000x4 .f32 := Host.absf main_arg0
  let main_cst : FVec F S_ .f32 := constant S_ .f32 0x7F800000#32
  let main_v1 : FVec F S1000000x4 .f32 := broadcastInDim S1000000x4 ![] bcast_S_S1000000x4 main_cst
  let main_v2 : IVec S1000000x4 1 := cmpf .olt main_v0 main_v1
  let main_c : IVec S_ 1 := constantI S_ 1 1#1
  let main_v3 : IVec S_ 1 := (fun x v => Host.reduce IntOp.andi x v reducesTo_S1000000x4_S_d0_1 h_S_) main_v2 main_c
  let main_v4 : FVec F S16000000x3 .f32 := Host.absf main_arg2
  let main_cst_0 : FVec F S_ .f32 := constant S_ .f32 0x7F800000#32
  let main_v5 : FVec F S16000000x3 .f32 := broadcastInDim S16000000x3 ![] bcast_S_S16000000x3 main_cst_0
  let main_v6 : IVec S16000000x3 1 := cmpf .olt main_v4 main_v5
  let main_c_1 : IVec S_ 1 := constantI S_ 1 1#1
  let main_v7 : IVec S_ 1 := (fun x v => Host.reduce IntOp.andi x v reducesTo_S16000000x3_S_d0_1 h_S_) main_v6 main_c_1
  let main_v8 : IVec S_ 1 := andi main_v3 main_v7
  let main_v9 : FVec F S3x1 .f32 := Host.absf main_arg3
  let main_cst_2 : FVec F S_ .f32 := constant S_ .f32 0x7F800000#32
  let main_v10 : FVec F S3x1 .f32 := broadcastInDim S3x1 ![] bcast_S_S3x1 main_cst_2
  let main_v11 : IVec S3x1 1 := cmpf .olt main_v9 main_v10
  let main_c_3 : IVec S_ 1 := constantI S_ 1 1#1
  let main_v12 : IVec S_ 1 := (fun x v => Host.reduce IntOp.andi x v reducesTo_S3x1_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg5 main_arg6 main_v13 main_v16
-- ==== Kernel.lean ====
abbrev S1000000x4 : Shape := ⟨2, ![1000000, 4]⟩
abbrev S2x16000000 : Shape := ⟨2, ![2, 16000000]⟩
abbrev S16000000x3 : Shape := ⟨2, ![16000000, 3]⟩
abbrev S3x1 : Shape := ⟨2, ![3, 1]⟩
abbrev S1 : Shape := ⟨1, ![1]⟩
abbrev S5x1 : Shape := ⟨2, ![5, 1]⟩
abbrev S1x1 : Shape := ⟨2, ![1, 1]⟩
abbrev S16000000x1 : Shape := ⟨2, ![16000000, 1]⟩
abbrev S16000x3 : Shape := ⟨2, ![16000, 3]⟩
abbrev S16000x1 : Shape := ⟨2, ![16000, 1]⟩
abbrev S1x16000000 : Shape := ⟨2, ![1, 16000000]⟩
abbrev S16000000 : Shape := ⟨1, ![16000000]⟩
abbrev S_ : Shape := ⟨0, ![]⟩
abbrev S1000000x1 : Shape := ⟨2, ![1000000, 1]⟩
abbrev S8000x4 : Shape := ⟨2, ![8000, 4]⟩
abbrev S8000x1 : Shape := ⟨2, ![8000, 1]⟩

abbrev nBuf : Space → Nat
  | .hbm => 17
  | .vmem => 14
  | .smem => 0
  | _ => 0

abbrev bufTy : (tb : Table) → Fin (tcTables nBuf tb) → BufTy
  | .hbm, ⟨0, _⟩ => ⟨S1000000x4, .f32⟩
  | .hbm, ⟨1, _⟩ => ⟨S2x16000000, .i32⟩
  | .hbm, ⟨2, _⟩ => ⟨S16000000x3, .f32⟩
  | .hbm, ⟨3, _⟩ => ⟨S3x1, .f32⟩
  | .hbm, ⟨4, _⟩ => ⟨S1, .f32⟩
  | .hbm, ⟨5, _⟩ => ⟨S5x1, .f32⟩
  | .hbm, ⟨6, _⟩ => ⟨S1, .f32⟩
  | .hbm, ⟨7, _⟩ => ⟨S1x1, .f32⟩
  | .hbm, ⟨8, _⟩ => ⟨S16000000x1, .f32⟩
  | .hbm, ⟨9, _⟩ => ⟨S1x16000000, .i32⟩
  | .hbm, ⟨10, _⟩ => ⟨S16000000, .i32⟩
  | .hbm, ⟨11, _⟩ => ⟨S_, .f32⟩
  | .hbm, ⟨12, _⟩ => ⟨S1000000x1, .f32⟩
  | .hbm, ⟨13, _⟩ => ⟨S16000000x1, .i32⟩
  | .hbm, ⟨14, _⟩ => ⟨S1000000x1, .f32⟩
  | .hbm, ⟨15, _⟩ => ⟨S1x1, .f32⟩
  | .hbm, ⟨16, _⟩ => ⟨S1000000x1, .f32⟩
  | .local _ .vmem, ⟨0, _⟩ => ⟨S16000x3, .f32⟩
  | .local _ .vmem, ⟨1, _⟩ => ⟨S16000x3, .f32⟩
  | .local _ .vmem, ⟨2, _⟩ => ⟨S3x1, .f32⟩
  | .local _ .vmem, ⟨3, _⟩ => ⟨S1x1, .f32⟩
  | .local _ .vmem, ⟨4, _⟩ => ⟨S16000x1, .f32⟩
  | .local _ .vmem, ⟨5, _⟩ => ⟨S16000x1, .f32⟩
  | .local _ .vmem, ⟨6, _⟩ => ⟨S8000x4, .f32⟩
  | .local _ .vmem, ⟨7, _⟩ => ⟨S8000x4, .f32⟩
  | .local _ .vmem, ⟨8, _⟩ => ⟨S8000x1, .f32⟩
  | .local _ .vmem, ⟨9, _⟩ => ⟨S8000x1, .f32⟩
  | .local _ .vmem, ⟨10, _⟩ => ⟨S5x1, .f32⟩
  | .local _ .vmem, ⟨11, _⟩ => ⟨S1x1, .f32⟩
  | .local _ .vmem, ⟨12, _⟩ => ⟨S8000x1, .f32⟩
  | .local _ .vmem, ⟨13, _⟩ => ⟨S8000x1, .f32⟩
  | _, _ => ⟨S1000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![1000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S5x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S1_S1x1 : S1.ShapeCasts S1x1
  inb_S16000x3_S16000x3_0_0 : ∀ a, (![0, 0] : Fin 2 → Nat) a + S16000x3.size a ≤ S16000x3.size a
  h_S16000x3 : 0 < S16000x3.numel
  inb_S3x1_S3x1_0_0 : ∀ a, (![0, 0] : Fin 2 → Nat) a + S3x1.size a ≤ S3x1.size a
  h_S3x1 : 0 < S3x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  slices_S16000x3_o0_0_S16000x1 : S16000x3.Slices ![0, 0] S16000x1
  slices_S3x1_o0_0_S1x1 : S3x1.Slices ![0, 0] S1x1
  broadcasts_S1x1_S16000x1 : S1x1.Broadcasts S16000x1
  slices_S16000x3_o0_1_S16000x1 : S16000x3.Slices ![0, 1] S16000x1
  slices_S3x1_o1_0_S1x1 : S3x1.Slices ![1, 0] S1x1
  slices_S16000x3_o0_2_S16000x1 : S16000x3.Slices ![0, 2] S16000x1
  slices_S3x1_o2_0_S1x1 : S3x1.Slices ![2, 0] S1x1
  inb_S16000x1_S16000x1_0_0 : ∀ a, (![0, 0] : Fin 2 → Nat) a + S16000x1.size a ≤ S16000x1.size a
  h_S16000x1 : 0 < S16000x1.numel
  slices_S2x16000000_S1x16000000_1_0 : S2x16000000.Slices ![1, 0] S1x16000000
  shapeCasts_S1x16000000_S16000000 : S1x16000000.ShapeCasts S16000000
  bcast_S_S1000000x1 : S_.BroadcastsInDim S1000000x1 (![] : Fin 0 → Fin S1000000x1.rank)
  bcast_S16000000_S16000000x1_0 : S16000000.BroadcastsInDim S16000000x1 (![0] : Fin 1 → Fin S16000000x1.rank)
  inb_S8000x4_S8000x4_0_0 : ∀ a, (![0, 0] : Fin 2 → Nat) a + S8000x4.size a ≤ S8000x4.size a
  h_S8000x4 : 0 < S8000x4.numel
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S5x1_S5x1_0_0 : ∀ a, (![0, 0] : Fin 2 → Nat) a + S5x1.size a ≤ S5x1.size a
  h_S5x1 : 0 < S5x1.numel
  slices_S8000x4_o0_3_S8000x1 : S8000x4.Slices ![0, 3] S8000x1
  slices_S8000x4_o0_0_S8000x1 : S8000x4.Slices ![0, 0] S8000x1
  slices_S5x1_o0_0_S1x1 : S5x1.Slices ![0, 0] S1x1
  broadcasts_S1x1_S8000x1 : S1x1.Broadcasts S8000x1
  slices_S8000x4_o0_1_S8000x1 : S8000x4.Slices ![0, 1] S8000x1
  slices_S5x1_o1_0_S1x1 : S5x1.Slices ![1, 0] S1x1
  slices_S8000x4_o0_2_S8000x1 : S8000x4.Slices ![0, 2] S8000x1
  slices_S5x1_o2_0_S1x1 : S5x1.Slices ![2, 0] S1x1
  slices_S5x1_o3_0_S1x1 : S5x1.Slices ![3, 0] S1x1
  slices_S5x1_o4_0_S1x1 : S5x1.Slices ![4, 0] S1x1
  scatter_S1000000x1_S16000000x1_S16000000x1_1_0_0_1_wf : ScatterDims.WF S1000000x1 S16000000x1 S16000000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x3.size a ≤ S16000000x3.size a
  hwx0_0 : ∀ i : grid0.Coords, EltTy.bits .f32 = 32 ∨ (Rect.block (s := S16000000x3) S16000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x1.size a ≤ S3x1.size a
  hwx0_1 : ∀ i : grid0.Coords, EltTy.bits .f32 = 32 ∨ (Rect.block (s := S3x1) S3x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16000x1.size a ≤ S16000000x1.size a
  hwx0_3 : ∀ i : grid0.Coords, EltTy.bits .f32 = 32 ∨ (Rect.block (s := S16000000x1) S16000x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x4.size a ≤ S1000000x4.size a
  hwx1_0 : ∀ i : grid1.Coords, EltTy.bits .f32 = 32 ∨ (Rect.block (s := S1000000x4) S8000x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S1000000x1.size a
  hwx1_1 : ∀ i : grid1.Coords, EltTy.bits .f32 = 32 ∨ (Rect.block (s := S1000000x1) S8000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S5x1.size a ≤ S5x1.size a
  hwx1_2 : ∀ i : grid1.Coords, EltTy.bits .f32 = 32 ∨ (Rect.block (s := S5x1) S5x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x1.size a ≤ S1000000x1.size a
  hwx1_4 : ∀ i : grid1.Coords, EltTy.bits .f32 = 32 ∨ (Rect.block (s := S1000000x1) S8000x1.size (cc1_transform_4 i) (hinb1_4 i)).WholeWords (EltTy.packing .f32)

variable [Facts₀]

def scatter_S1000000x1_S16000000x1_S16000000x1_1_0_0_1 : ScatterDims S1000000x1 S16000000x1 S16000000x1 where
  updateWindowDims := [1]
  insertedWindowDims := [0]
  scatterDimsToOperandDims := [0]
  indexVectorDim := 1
  wf := scatter_S1000000x1_S16000000x1_S16000000x1_1_0_0_1_wf

abbrev win0_0 : Pipeline.Window sig grid0 :=
  Pipeline.Window.ofSpec (Memref.whole main_arg2) S16000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S8000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S5x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S8000x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1000000x4 : Shape := ⟨2, ![1000000, 4]⟩
abbrev S2x16000000 : Shape := ⟨2, ![2, 16000000]⟩
abbrev S16000000x3 : Shape := ⟨2, ![16000000, 3]⟩
abbrev S3x1 : Shape := ⟨2, ![3, 1]⟩
abbrev S1 : Shape := ⟨1, ![1]⟩
abbrev S5x1 : Shape := ⟨2, ![5, 1]⟩
abbrev S16000000x1 : Shape := ⟨2, ![16000000, 1]⟩
abbrev S1x1 : Shape := ⟨2, ![1, 1]⟩
abbrev S1x16000000 : Shape := ⟨2, ![1, 16000000]⟩
abbrev S16000000 : Shape := ⟨1, ![16000000]⟩
abbrev S_ : Shape := ⟨0, ![]⟩
abbrev S1000000x1 : Shape := ⟨2, ![1000000, 1]⟩
abbrev S1000000x5 : Shape := ⟨2, ![1000000, 5]⟩

abbrev nBuf : Space → Nat
  | .hbm => 26
  | .vmem => 0
  | .smem => 0
  | _ => 0

abbrev bufTy : (tb : Table) → Fin (tcTables nBuf tb) → BufTy
  | .hbm, ⟨0, _⟩ => ⟨S1000000x4, .f32⟩
  | .hbm, ⟨1, _⟩ => ⟨S2x16000000, .i32⟩
  | .hbm, ⟨2, _⟩ => ⟨S16000000x3, .f32⟩
  | .hbm, ⟨3, _⟩ => ⟨S3x1, .f32⟩
  | .hbm, ⟨4, _⟩ => ⟨S1, .f32⟩
  | .hbm, ⟨5, _⟩ => ⟨S5x1, .f32⟩
  | .hbm, ⟨6, _⟩ => ⟨S1, .f32⟩
  | .hbm, ⟨7, _⟩ => ⟨S16000000x1, .f32⟩
  | .hbm, ⟨8, _⟩ => ⟨S1x1, .f32⟩
  | .hbm, ⟨9, _⟩ => ⟨S16000000x1, .f32⟩
  | .hbm, ⟨10, _⟩ => ⟨S16000000x1, .f32⟩
  | .hbm, ⟨11, _⟩ => ⟨S1x16000000, .i32⟩
  | .hbm, ⟨12, _⟩ => ⟨S16000000, .i32⟩
  | .hbm, ⟨13, _⟩ => ⟨S_, .f32⟩
  | .hbm, ⟨14, _⟩ => ⟨S1000000x1, .f32⟩
  | .hbm, ⟨15, _⟩ => ⟨S16000000x1, .i32⟩
  | .hbm, ⟨16, _⟩ => ⟨S1000000x1, .f32⟩
  | .hbm, ⟨17, _⟩ => ⟨S1000000x1, .f32⟩
  | .hbm, ⟨18, _⟩ => ⟨S1000000x1, .f32⟩
  | .hbm, ⟨19, _⟩ => ⟨S1000000x5, .f32⟩
  | .hbm, ⟨20, _⟩ => ⟨S1000000x1, .f32⟩
  | .hbm, ⟨21, _⟩ => ⟨S1x1, .f32⟩
  | .hbm, ⟨22, _⟩ => ⟨S1000000x1, .f32⟩
  | .hbm, ⟨23, _⟩ => ⟨S1000000x1, .f32⟩
  | .hbm, ⟨24, _⟩ => ⟨S1000000x1, .f32⟩
  | .hbm, ⟨25, _⟩ => ⟨S1000000x1, .f32⟩
  | _, _ => ⟨S1000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S16000000x1_0_1 : S1x1.BroadcastsInDim S16000000x1 (![0, 1] : Fin 2 → Fin S16000000x1.rank)
  slices_S2x16000000_S1x16000000_1_0 : S2x16000000.Slices ![1, 0] S1x16000000
  shapeCasts_S1x16000000_S16000000 : S1x16000000.ShapeCasts S16000000
  bcast_S_S1000000x1 : S_.BroadcastsInDim S1000000x1 (![] : Fin 0 → Fin S1000000x1.rank)
  bcast_S16000000_S16000000x1_0 : S16000000.BroadcastsInDim S16000000x1 (![0] : Fin 1 → Fin S16000000x1.rank)
  slices_S1000000x4_S1000000x1_0_3 : S1000000x4.Slices ![0, 3] S1000000x1
  concatenates_S1000000x4_S1000000x1_S1000000x5_d1 : Shape.Concatenates [S1000000x4, S1000000x1] S1000000x5 1
  bcast_S1x1_S1000000x1_0_1 : S1x1.BroadcastsInDim S1000000x1 (![0, 1] : Fin 2 → Fin S1000000x1.rank)
  slices_S1000000x4_S1000000x1_0_0 : S1000000x4.Slices ![0, 0] S1000000x1
  dot_S16000000x3_S3x1_S16000000x1_1_0_0_1_n_n_wf : DotDims.WF S16000000x3 S3x1 S16000000x1 [1] [0] [0] [1] [] []
  scatter_S1000000x1_S16000000x1_S16000000x1_1_0_0_1_wf : ScatterDims.WF S1000000x1 S16000000x1 S16000000x1 [1] [0] [0] 1
  dot_S1000000x5_S5x1_S1000000x1_1_0_0_1_n_n_wf : DotDims.WF S1000000x5 S5x1 S1000000x1 [1] [0] [0] [1] [] []

variable [Facts₀]

def dot_S16000000x3_S3x1_S16000000x1_1_0_0_1_n_n : DotDims S16000000x3 S3x1 S16000000x1 where
  lhsContracting := [1]
  rhsContracting := [0]
  lhsNonContracting := [0]
  rhsNonContracting := [1]
  lhsBatch := []
  rhsBatch := []
  wf := dot_S16000000x3_S3x1_S16000000x1_1_0_0_1_n_n_wf
def scatter_S1000000x1_S16000000x1_S16000000x1_1_0_0_1 : ScatterDims S1000000x1 S16000000x1 S16000000x1 where
  updateWindowDims := [1]
  insertedWindowDims := [0]
  scatterDimsToOperandDims := [0]
  indexVectorDim := 1
  wf := scatter_S1000000x1_S16000000x1_S16000000x1_1_0_0_1_wf
def dot_S1000000x5_S5x1_S1000000x1_1_0_0_1_n_n : DotDims S1000000x5 S5x1 S1000000x1 where
  lhsContracting := [1]
  rhsContracting := [0]
  lhsNonContracting := [0]
  rhsNonContracting := [1]
  lhsBatch := []
  rhsBatch := []
  wf := dot_S1000000x5_S5x1_S1000000x1_1_0_0_1_n_n_wf

class Facts : Prop extends Facts₀ where

variable [Facts]
-- ==== Proof.Spec.lean ====
/-
  The mathematics both programs compute, as plain functions of arrays over the extended reals.

  A graph has edges with three attributes each and nodes with four features each.
  * `edgeMsg`: the message of edge `e` is the affine form  ea(e,0)·w(0) + ea(e,1)·w(1) + ea(e,2)·w(2) + b
    of its attributes (a contraction over three terms, written out from the left, plus a bias).
  * `nodeUpd`: with `aggr(v)` the sum of the messages arriving at node `v`, the new value of node `v` is
    x(v,0) + ( x(v,0)·w(0) + x(v,1)·w(1) + x(v,2)·w(2) + x(v,3)·w(3) + (aggr(v)·x(v,3))·w(4) + b ):
    a contraction over the four features and the scaled aggregate, a bias, and the first feature added back.
  Both are stated for any number of rows, so that the same function describes one block of rows and the whole
  array: a block of the result is the function of the matching blocks of the inputs.
  The sums are kept in the order the terms are listed; addition and multiplication are the extended reals'.
-/
import Idealize.ShloMosaic.PureOps.Ideal
import Idealize.ShloMosaic.Lib.ValueIdx

noncomputable section

namespace Cert.Spec

open Idealize.ShloMosaic Idealize.ShloMosaic.ValueIdx

/-- The message of each edge: the three attributes against the three weights, summed from the left, plus the bias. -/
def edgeMsg {n : Nat} (ea : (⟨2, ![n, 3]⟩ : Shape).Idx → EReal) (w : (⟨2, ![3, 1]⟩ : Shape).Idx → EReal)
    (b : (⟨2, ![1, 1]⟩ : Shape).Idx → EReal) : (⟨2, ![n, 1]⟩ : Shape).Idx → EReal :=
  fun i => ea (ix2 (i 0) (0 : Fin 3)) * w (ix2 (0 : Fin 3) (0 : Fin 1))
    + ea (ix2 (i 0) (1 : Fin 3)) * w (ix2 (1 : Fin 3) (0 : Fin 1))
    + ea (ix2 (i 0) (2 : Fin 3)) * w (ix2 (2 : Fin 3) (0 : Fin 1))
    + b (ix2 (0 : Fin 1) (0 : Fin 1))

/-- The new value of each node: its four features and its scaled aggregate against the five weights, summed from
    the left, plus the bias, and the first feature added in front. -/
def nodeUpd {n : Nat} (x : (⟨2, ![n, 4]⟩ : Shape).Idx → EReal) (aggr : (⟨2, ![n, 1]⟩ : Shape).Idx → EReal)
    (w : (⟨2, ![5, 1]⟩ : Shape).Idx → EReal) (b : (⟨2, ![1, 1]⟩ : Shape).Idx → EReal) :
    (⟨2, ![n, 1]⟩ : Shape).Idx → EReal :=
  fun i => x (ix2 (i 0) (0 : Fin 4))
    + (x (ix2 (i 0) (0 : Fin 4)) * w (ix2 (0 : Fin 5) (0 : Fin 1))
      + x (ix2 (i 0) (1 : Fin 4)) * w (ix2 (1 : Fin 5) (0 : Fin 1))
      + x (ix2 (i 0) (2 : Fin 4)) * w (ix2 (2 : Fin 5) (0 : Fin 1))
      + x (ix2 (i 0) (3 : Fin 4)) * w (ix2 (3 : Fin 5) (0 : Fin 1))
      + aggr (ix2 (i 0) (0 : Fin 1)) * x (ix2 (i 0) (3 : Fin 4)) * w (ix2 (4 : Fin 5) (0 : Fin 1))
      + b (ix2 (0 : Fin 1) (0 : Fin 1)))

/-- The message of row `p`, written out. -/
theorem edgeMsg_row {n : Nat} (ea : (⟨2, ![n, 3]⟩ : Shape).Idx → EReal) (w : (⟨2, ![3, 1]⟩ : Shape).Idx → EReal)
    (b : (⟨2, ![1, 1]⟩ : Shape).Idx → EReal) (p : Fin n) :
    edgeMsg ea w b (ix2 p (0 : Fin 1))
      = ea (ix2 p (0 : Fin 3)) * w (ix2 (0 : Fin 3) (0 : Fin 1))
        + ea (ix2 p (1 : Fin 3)) * w (ix2 (1 : Fin 3) (0 : Fin 1))
        + ea (ix2 p (2 : Fin 3)) * w (ix2 (2 : Fin 3) (0 : Fin 1))
        + b (ix2 (0 : Fin 1) (0 : Fin 1)) := rfl

/-- The update of row `p`, written out. -/
theorem nodeUpd_row {n : Nat} (x : (⟨2, ![n, 4]⟩ : Shape).Idx → EReal) (aggr : (⟨2, ![n, 1]⟩ : Shape).Idx → EReal)
    (w : (⟨2, ![5, 1]⟩ : Shape).Idx → EReal) (b : (⟨2, ![1, 1]⟩ : Shape).Idx → EReal) (p : Fin n) :
    nodeUpd x aggr w b (ix2 p (0 : Fin 1))
      = x (ix2 p (0 : Fin 4))
        + (x (ix2 p (0 : Fin 4)) * w (ix2 (0 : Fin 5) (0 : Fin 1))
          + x (ix2 p (1 : Fin 4)) * w (ix2 (1 : Fin 5) (0 : Fin 1))
          + x (ix2 p (2 : Fin 4)) * w (ix2 (2 : Fin 5) (0 : Fin 1))
          + x (ix2 p (3 : Fin 4)) * w (ix2 (3 : Fin 5) (0 : Fin 1))
          + aggr (ix2 p (0 : Fin 1)) * x (ix2 p (3 : Fin 4)) * w (ix2 (4 : Fin 5) (0 : Fin 1))
          + b (ix2 (0 : Fin 1) (0 : Fin 1))) := rfl

end Cert.Spec

end
-- ==== Proof.LibColumnOps.lean ====
/-
  Matrices with one column, read at an index given by coordinates.

  Three facts about an `[n, c]` matrix `X` and an `[r, 1]` column `W`, each an instance of the library's
  slice and broadcast lemmas with the coordinates' arithmetic done:
  * column `o` of `X`, cut out as an `[n, 1]` matrix, holds at row `p` the entry `X (p, o)`;
  * entry `(o, 0)` of `W`, cut out as a `[1, 1]` matrix and spread over `n` rows, holds `W (o, 0)` at every row;
  * a `[1, 1]` matrix spread over `n` rows holds its one entry at every row.
  Together they read a product "column of `X` times one weight" at a row, which is what a small contraction
  written out term by term is made of.
-/
import Idealize.ShloMosaic.Lib.ValueLayout

namespace Cert.ColumnOps

open Idealize.ShloMosaic Idealize.ShloMosaic.ValueIdx

variable {α : Type}

/-- Column `o` of an `[n, c]` matrix, cut out as an `[n, 1]` matrix, holds at row `p` the matrix's entry `(p, o)`. -/
theorem column_apply {n c : Nat} (o : Nat) (ho : o < c) (X : (⟨2, ![n, c]⟩ : Shape).Idx → α)
    (h : (⟨2, ![n, c]⟩ : Shape).Slices ![0, o] ⟨2, ![n, 1]⟩) (p : Fin n) :
    extractStridedSlice ⟨2, ![n, 1]⟩ ![0, o] X h (ix2 p (0 : Fin 1)) = X (ix2 p (⟨o, ho⟩ : Fin c)) :=
  slice2_axis1_apply o X h p 0 ⟨o, ho⟩ rfl

/-- Entry `(o, 0)` of an `[r, 1]` column, cut out as a `[1, 1]` matrix and spread over `n` rows, holds that
    entry at every row. -/
theorem entry_spread_apply {r n : Nat} (o : Nat) (ho : o < r) (W : (⟨2, ![r, 1]⟩ : Shape).Idx → α)
    (h : (⟨2, ![r, 1]⟩ : Shape).Slices ![o, 0] ⟨2, ![1, 1]⟩)
    (hb : (⟨2, ![1, 1]⟩ : Shape).Broadcasts ⟨2, ![n, 1]⟩) (p : Fin n) :
    broadcastTo ⟨2, ![n, 1]⟩ (extractStridedSlice ⟨2, ![1, 1]⟩ ![o, 0] W h) hb (ix2 p (0 : Fin 1))
      = W (ix2 (⟨o, ho⟩ : Fin r) (0 : Fin 1)) :=
  (broadcastTo_1b_ab_apply _ hb p 0).trans (slice2_axis0_apply o W h 0 0 ⟨o, ho⟩ rfl)

/-- A `[1, 1]` matrix spread over `n` rows holds its one entry at every row. -/
theorem one_spread_apply {n : Nat} (B : (⟨2, ![1, 1]⟩ : Shape).Idx → α)
    (hb : (⟨2, ![1, 1]⟩ : Shape).Broadcasts ⟨2, ![n, 1]⟩) (p : Fin n) :
    broadcastTo ⟨2, ![n, 1]⟩ B hb (ix2 p (0 : Fin 1)) = B (ix2 (0 : Fin 1) (0 : Fin 1)) :=
  broadcastTo_1b_ab_apply B hb p 0

end Cert.ColumnOps
-- ==== Proof.KernelPayload.lean ====
/-
  What each kernel body stores, read at a row.

  The edge body loads a block of 16000 edges' attributes, the three weights and the bias, and stores one value per
  edge; the node body loads a block of 8000 nodes' features, their aggregates, the five weights and the bias, and
  stores one value per node. Each stored value, at row `p` of its block, is the specification's function
  (`Cert.Spec.edgeMsg`, `Cert.Spec.nodeUpd`) of the loaded blocks at that row: every factor is a column of a loaded
  matrix or one weight spread over the rows, and the sums and products are pointwise.
-/
import proofs.«166425_j85306640433889_2_alg».proof.Proof.Gen.KernelIdeal.Skeleton
import proofs.«166425_j85306640433889_2_alg».proof.Proof.Spec
import proofs.«166425_j85306640433889_2_alg».proof.Proof.LibColumnOps
import Idealize.ShloMosaic.Lib.Pipeline.Value

noncomputable section

namespace Cert.KernelIdeal.Payload

open Cert.KernelIdeal Cert.KernelIdeal.Gen Idealize.ShloMosaic Idealize.ShloMosaic.ValueIdx Cert.Spec Cert.ColumnOps

/-- The edge body's stored value at row `p` is the message of that row of the loaded block. -/
theorem edge_payload (x0 : Vec Ideal S16000x3 .f32) (x1 : Vec Ideal S3x1 .f32) (x2 : Vec Ideal S1x1 .f32) (p : Fin 16000) :
    k0_pay1 (F := Ideal) x0 x1 x2 (ix2 p (0 : Fin 1)) = edgeMsg x0 x1 x2 (ix2 p (0 : Fin 1)) := by
  unfold k0_pay1 edgeMsg
  exact congrArg₂ (· + ·)
    (congrArg₂ (· + ·)
      (congrArg₂ (· + ·)
        (congrArg₂ (· * ·) (column_apply 0 (by decide) x0 _ p) (entry_spread_apply 0 (by decide) x1 _ _ p))
        (congrArg₂ (· * ·) (column_apply 1 (by decide) x0 _ p) (entry_spread_apply 1 (by decide) x1 _ _ p)))
      (congrArg₂ (· * ·) (column_apply 2 (by decide) x0 _ p) (entry_spread_apply 2 (by decide) x1 _ _ p)))
    ((one_spread_apply _ _ p).trans (congrFun (shapeCast_self x2 _) _))

/-- The node body's stored value at row `p` is the update of that row of the loaded blocks. -/
theorem node_payload (x0 : Vec Ideal S8000x4 .f32) (x1 : Vec Ideal S8000x1 .f32) (x3 : Vec Ideal S5x1 .f32) (x4 : Vec Ideal S1x1 .f32)
    (p : Fin 8000) :
    k1_pay1 (F := Ideal) x0 x1 x3 x4 (ix2 p (0 : Fin 1)) = nodeUpd x0 x1 x3 x4 (ix2 p (0 : Fin 1)) := by
  unfold k1_pay1 nodeUpd
  exact congrArg₂ (· + ·) (column_apply 0 (by decide) x0 _ p)
    (congrArg₂ (· + ·)
      (congrArg₂ (· + ·)
        (congrArg₂ (· + ·)
          (congrArg₂ (· + ·)
            (congrArg₂ (· + ·)
              (congrArg₂ (· * ·) (column_apply 0 (by decide) x0 _ p) (entry_spread_apply 0 (by decide) x3 _ _ p))
              (congrArg₂ (· * ·) (column_apply 1 (by decide) x0 _ p) (entry_spread_apply 1 (by decide) x3 _ _ p)))
            (congrArg₂ (· * ·) (column_apply 2 (by decide) x0 _ p) (entry_spread_apply 2 (by decide) x3 _ _ p)))
          (congrArg₂ (· * ·) (column_apply 3 (by decide) x0 _ p) (entry_spread_apply 3 (by decide) x3 _ _ p)))
        (congrArg₂ (· * ·)
          (congrArg₂ (· * ·) (congrFun (shapeCast_self x1 _) _) (column_apply 3 (by decide) x0 _ p))
          (entry_spread_apply 4 (by decide) x3 _ _ p)))
      ((one_spread_apply _ _ p).trans (congrFun (shapeCast_self x4 _) _)))

/-- The same at any index of the block: an index of an `[n, 1]` array is its row and the one column. -/
theorem edge_payload_at (x0 : Vec Ideal S16000x3 .f32) (x1 : Vec Ideal S3x1 .f32) (x2 : Vec Ideal S1x1 .f32) (j : S16000x1.Idx) :
    k0_pay1 (F := Ideal) x0 x1 x2 j = edgeMsg x0 x1 x2 j := by
  obtain ⟨p, q, rfl⟩ : ∃ (p : Fin 16000) (q : Fin 1), j = ix2 p q := ⟨j 0, j 1, eq_ix2 j⟩
  obtain rfl : q = 0 := Subsingleton.elim _ _
  exact edge_payload x0 x1 x2 p

theorem node_payload_at (x0 : Vec Ideal S8000x4 .f32) (x1 : Vec Ideal S8000x1 .f32) (x3 : Vec Ideal S5x1 .f32) (x4 : Vec Ideal S1x1 .f32)
    (j : S8000x1.Idx) :
    k1_pay1 (F := Ideal) x0 x1 x3 x4 j = nodeUpd x0 x1 x3 x4 j := by
  obtain ⟨p, q, rfl⟩ : ∃ (p : Fin 8000) (q : Fin 1), j = ix2 p q := ⟨j 0, j 1, eq_ix2 j⟩
  obtain rfl : q = 0 := Subsingleton.elim _ _
  exact node_payload x0 x1 x3 x4 p

end Cert.KernelIdeal.Payload

end
-- ==== Proof.KernelBlocks.lean ====
/-
  From blocks to whole arrays, for each of the two grids.

  The edge grid has 1000 points; point `t` reads rows 16000·t … 16000·t + 15999 of the edge attributes, the whole
  weight column and the bias, and writes the same rows of the message array. The node grid has 125 points; point `t`
  reads rows 8000·t … 8000·t + 7999 of the features and of the aggregates, the whole weight column and the bias, and
  writes the same rows of the result. Since the specification's functions act row by row, what a point writes is
  the matching block of the function of the WHOLE input arrays; the blocks tile the output (row `r` lies in the
  block of point `r / 16000`, resp. `r / 8000`), so each output array ends holding that function of the arrays the
  grid was entered with. Everything is stated at any contents `V` of the buffers on entry.
-/
import proofs.«166425_j85306640433889_2_alg».proof.Proof.Gen.KernelIdeal.Frame
import proofs.«166425_j85306640433889_2_alg».proof.Proof.KernelPayload
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem Cert.Spec
open Idealize.ShloMosaic.Pipeline (Dat)

variable (V : (c : Dev nD) → (b : Ref sig .tc) → Buf (Elt Ideal) ((c : Thread nD τ).loc b))

/-- The zero offsets of a whole-block access, as a constant function. -/
theorem zero_offsets : (![0, 0] : Fin 2 → Nat) = fun _ => 0 := funext fun a => by fin_cases a <;> rfl

/-! ## The edge grid -/

/-- The block indices over the edge grid: the attribute block and the message block of point `t` are block `t` of
    their arrays along the rows, and the only block along the columns; the weights and the bias are one block. -/
theorem edge_index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` of the edge grid writes back is block `t` of the messages of the whole arrays. -/
theorem edge_flushed (c : Dev nD) (t : Fin cfg0.N) :
    (dat0 V c).flushed 3 t
      = ((cfg0.win 3).blk t).view.read (Elt Ideal) (edgeMsg (V c main_arg2) (V c main_arg3) (V c main_v0)) := by
  show (cfg0.win 3).cut (grid0.coords t) ((dat0 V c).after 3 t) = _
  rw [after0_3]
  unfold out0_3
  rw [View.canon_unit_zero zero_offsets]
  simp only [View.ld_unit_zero (S := S16000x3) zero_offsets, View.ld_unit_zero (S := S3x1) zero_offsets,
    View.ld_unit_zero (S := S1x1) zero_offsets]
  obtain ⟨e00, e01, e10, e11, e20, e21, e30, e31⟩ := edge_index_facts t
  funext j
  show k0_pay1 (iblk0 V c 0 t) (iblk0 V c 1 t) (iblk0 V c 2 t) j
    = edgeMsg (V c main_arg2) (V c main_arg3) (V c main_v0) (((cfg0.win 3).blk t).view.emb j)
  refine (Payload.edge_payload_at (iblk0 V c 0 t) (iblk0 V c 1 t) (iblk0 V c 2 t) j).trans ?_
  have hea : ∀ k : Fin 3, iblk0 V c 0 t (ix2 (j 0) k)
      = V c main_arg2 (ix2 ((((cfg0.win 3).blk t).view.emb j) 0) k) := fun k => by
    show V c main_arg2 (((cfg0.win 0).blk t).view.emb (ix2 (j 0) k)) = _
    refine congrArg _ (funext fun a => Fin.ext ?_)
    match a with
    | ⟨0, _⟩ =>
      show win0_0.index t (0 : Fin 2) * 16000 + 1 * (j 0).val = win0_3.index t (0 : Fin 2) * 16000 + 1 * (j 0).val
      omega
    | ⟨1, _⟩ =>
      show win0_0.index t (1 : Fin 2) * 3 + 1 * k.val = k.val
      omega
  have hw : ∀ k : Fin 3, iblk0 V c 1 t (ix2 k (0 : Fin 1)) = V c main_arg3 (ix2 k (0 : Fin 1)) := fun k => by
    show V c main_arg3 (((cfg0.win 1).blk t).view.emb (ix2 k (0 : Fin 1))) = _
    refine congrArg _ (funext fun a => Fin.ext ?_)
    match a with
    | ⟨0, _⟩ =>
      show win0_1.index t (0 : Fin 2) * 3 + 1 * k.val = k.val
      omega
    | ⟨1, _⟩ =>
      show win0_1.index t (1 : Fin 2) * 1 + 1 * 0 = 0
      omega
  have hb : iblk0 V c 2 t (ix2 (0 : Fin 1) (0 : Fin 1)) = V c main_v0 (ix2 (0 : Fin 1) (0 : Fin 1)) := by
    show V c main_v0 (((cfg0.win 2).blk t).view.emb (ix2 (0 : Fin 1) (0 : Fin 1))) = _
    refine congrArg _ (funext fun a => Fin.ext ?_)
    match a with
    | ⟨0, _⟩ =>
      show win0_2.index t (0 : Fin 2) * 1 + 1 * 0 = 0
      omega
    | ⟨1, _⟩ =>
      show win0_2.index t (1 : Fin 2) * 1 + 1 * 0 = 0
      omega
  unfold edgeMsg
  exact congrArg₂ (· + ·)
    (congrArg₂ (· + ·)
      (congrArg₂ (· + ·) (congrArg₂ (· * ·) (hea 0) (hw 0)) (congrArg₂ (· * ·) (hea 1) (hw 1)))
      (congrArg₂ (· * ·) (hea 2) (hw 2)))
    hb

/-- A row of the message array lies in point `t`'s block iff each coordinate is in the block's range on its axis. -/
theorem edge_mem_blk (t : Fin cfg0.N) (i : S16000000x1.Idx) :
    i ∈ ((cfg0.win 3).blk t).view.set
      ↔ ∀ a : Fin 2, win0_3.index t a * S16000x1.size a ≤ (i a).val
          ∧ (i a).val < win0_3.index t a * S16000x1.size a + S16000x1.size a := by
  show i ∈ ((View.whole main_v1).slice (win0_3.rect t)).set ↔ _
  rw [View.set_slice_whole, Rect.mem_set_unit]
  exact Iff.rfl

/-- Every row of the message array lies in the block of the point `row / 16000`. -/
theorem edge_cover (i : S16000000x1.Idx) :
    ∃ t : Fin cfg0.N, (cfg0.win 3).flush t = true ∧ i ∈ ((cfg0.win 3).blk t).view.set := by
  have hi0 : (i 0).val < 16000000 := (i 0).isLt
  have hi1 : (i 1).val < 1 := (i 1).isLt
  have hN : grid0.N = 1000 := N_0
  have hlt : (i 0).val / 16000 < cfg0.N := by
    show (i 0).val / 16000 < grid0.N
    rw [hN]; omega
  obtain ⟨-, -, -, -, -, -, e30, e31⟩ := edge_index_facts ⟨(i 0).val / 16000, hlt⟩
  refine ⟨⟨(i 0).val / 16000, hlt⟩, flush0_3 _, ?_⟩
  rw [edge_mem_blk]
  intro a
  match a with
  | ⟨0, _⟩ =>
    show win0_3.index ⟨(i 0).val / 16000, hlt⟩ (0 : Fin 2) * 16000 ≤ (i 0).val
      ∧ (i 0).val < win0_3.index ⟨(i 0).val / 16000, hlt⟩ (0 : Fin 2) * 16000 + 16000
    rw [e30]
    show (i 0).val / 16000 * 16000 ≤ (i 0).val ∧ (i 0).val < (i 0).val / 16000 * 16000 + 16000
    omega
  | ⟨1, _⟩ =>
    show win0_3.index ⟨(i 0).val / 16000, hlt⟩ (1 : Fin 2) * 1 ≤ (i 1).val
      ∧ (i 1).val < win0_3.index ⟨(i 0).val / 16000, hlt⟩ (1 : Fin 2) * 1 + 1
    rw [e31]
    omega

/-- The message array after the edge grid: the messages of the arrays the grid was entered with. -/
theorem edge_final (c : Dev nD) :
    (dat0 V c).arrAt 3 cfg0.N = edgeMsg (V c main_arg2) (V c main_arg3) (V c main_v0) :=
  (dat0 V c).arrAt_eq_of_cover 3 _ (fun t _ => edge_flushed V c t) edge_cover

/-! ## The node grid -/

/-- The block indices over the node grid: the feature block, the aggregate block and the result block of point `t`
    are block `t` of their arrays along the rows, and the only block along the columns; the weights and the bias
    are one block. -/
theorem node_index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` of the node grid writes back is block `t` of the updates of the whole arrays. -/
theorem node_flushed (c : Dev nD) (t : Fin cfg1.N) :
    (dat1 V c).flushed 4 t
      = ((cfg1.win 4).blk t).view.read (Elt Ideal)
          (nodeUpd (V c main_arg0) (V c main_v6) (V c main_arg5) (V c main_v7)) := by
  show (cfg1.win 4).cut (grid1.coords t) ((dat1 V c).after 4 t) = _
  rw [after1_4]
  unfold out1_4
  rw [View.canon_unit_zero zero_offsets]
  simp only [View.ld_unit_zero (S := S8000x4) zero_offsets, View.ld_unit_zero (S := S8000x1) zero_offsets,
    View.ld_unit_zero (S := S5x1) zero_offsets, View.ld_unit_zero (S := S1x1) zero_offsets]
  obtain ⟨e00, e01, e10, e11, e20, e21, e30, e31, e40, e41⟩ := node_index_facts t
  funext j
  show k1_pay1 (iblk1 V c 0 t) (iblk1 V c 1 t) (iblk1 V c 2 t) (iblk1 V c 3 t) j
    = nodeUpd (V c main_arg0) (V c main_v6) (V c main_arg5) (V c main_v7) (((cfg1.win 4).blk t).view.emb j)
  refine (Payload.node_payload_at (iblk1 V c 0 t) (iblk1 V c 1 t) (iblk1 V c 2 t) (iblk1 V c 3 t) j).trans ?_
  have hx : ∀ k : Fin 4, iblk1 V c 0 t (ix2 (j 0) k)
      = V c main_arg0 (ix2 ((((cfg1.win 4).blk t).view.emb j) 0) k) := fun k => by
    show V c main_arg0 (((cfg1.win 0).blk t).view.emb (ix2 (j 0) k)) = _
    refine congrArg _ (funext fun a => Fin.ext ?_)
    match a with
    | ⟨0, _⟩ =>
      show win1_0.index t (0 : Fin 2) * 8000 + 1 * (j 0).val = win1_4.index t (0 : Fin 2) * 8000 + 1 * (j 0).val
      omega
    | ⟨1, _⟩ =>
      show win1_0.index t (1 : Fin 2) * 4 + 1 * k.val = k.val
      omega
  have hag : iblk1 V c 1 t (ix2 (j 0) (0 : Fin 1))
      = V c main_v6 (ix2 ((((cfg1.win 4).blk t).view.emb j) 0) (0 : Fin 1)) := by
    show V c main_v6 (((cfg1.win 1).blk t).view.emb (ix2 (j 0) (0 : Fin 1))) = _
    refine congrArg _ (funext fun a => Fin.ext ?_)
    match a with
    | ⟨0, _⟩ =>
      show win1_1.index t (0 : Fin 2) * 8000 + 1 * (j 0).val = win1_4.index t (0 : Fin 2) * 8000 + 1 * (j 0).val
      omega
    | ⟨1, _⟩ =>
      show win1_1.index t (1 : Fin 2) * 1 + 1 * 0 = 0
      omega
  have hw : ∀ k : Fin 5, iblk1 V c 2 t (ix2 k (0 : Fin 1)) = V c main_arg5 (ix2 k (0 : Fin 1)) := fun k => by
    show V c main_arg5 (((cfg1.win 2).blk t).view.emb (ix2 k (0 : Fin 1))) = _
    refine congrArg _ (funext fun a => Fin.ext ?_)
    match a with
    | ⟨0, _⟩ =>
      show win1_2.index t (0 : Fin 2) * 5 + 1 * k.val = k.val
      omega
    | ⟨1, _⟩ =>
      show win1_2.index t (1 : Fin 2) * 1 + 1 * 0 = 0
      omega
  have hb : iblk1 V c 3 t (ix2 (0 : Fin 1) (0 : Fin 1)) = V c main_v7 (ix2 (0 : Fin 1) (0 : Fin 1)) := by
    show V c main_v7 (((cfg1.win 3).blk t).view.emb (ix2 (0 : Fin 1) (0 : Fin 1))) = _
    refine congrArg _ (funext fun a => Fin.ext ?_)
    match a with
    | ⟨0, _⟩ =>
      show win1_3.index t (0 : Fin 2) * 1 + 1 * 0 = 0
      omega
    | ⟨1, _⟩ =>
      show win1_3.index t (1 : Fin 2) * 1 + 1 * 0 = 0
      omega
  unfold nodeUpd
  exact congrArg₂ (· + ·) (hx 0)
    (congrArg₂ (· + ·)
      (congrArg₂ (· + ·)
        (congrArg₂ (· + ·)
          (congrArg₂ (· + ·)
            (congrArg₂ (· + ·) (congrArg₂ (· * ·) (hx 0) (hw 0)) (congrArg₂ (· * ·) (hx 1) (hw 1)))
            (congrArg₂ (· * ·) (hx 2) (hw 2)))
          (congrArg₂ (· * ·) (hx 3) (hw 3)))
        (congrArg₂ (· * ·) (congrArg₂ (· * ·) hag (hx 3)) (hw 4)))
      hb)

/-- A row of the result array lies in point `t`'s block iff each coordinate is in the block's range on its axis. -/
theorem node_mem_blk (t : Fin cfg1.N) (i : S1000000x1.Idx) :
    i ∈ ((cfg1.win 4).blk t).view.set
      ↔ ∀ a : Fin 2, win1_4.index t a * S8000x1.size a ≤ (i a).val
          ∧ (i a).val < win1_4.index t a * S8000x1.size a + S8000x1.size a := by
  show i ∈ ((View.whole main_v8).slice (win1_4.rect t)).set ↔ _
  rw [View.set_slice_whole, Rect.mem_set_unit]
  exact Iff.rfl

/-- Every row of the result array lies in the block of the point `row / 8000`. -/
theorem node_cover (i : S1000000x1.Idx) :
    ∃ t : Fin cfg1.N, (cfg1.win 4).flush t = true ∧ i ∈ ((cfg1.win 4).blk t).view.set := by
  have hi0 : (i 0).val < 1000000 := (i 0).isLt
  have hi1 : (i 1).val < 1 := (i 1).isLt
  have hN : grid1.N = 125 := N_1
  have hlt : (i 0).val / 8000 < cfg1.N := by
    show (i 0).val / 8000 < grid1.N
    rw [hN]; omega
  obtain ⟨-, -, -, -, -, -, -, -, e40, e41⟩ := node_index_facts ⟨(i 0).val / 8000, hlt⟩
  refine ⟨⟨(i 0).val / 8000, hlt⟩, flush1_4 _, ?_⟩
  rw [node_mem_blk]
  intro a
  match a with
  | ⟨0, _⟩ =>
    show win1_4.index ⟨(i 0).val / 8000, hlt⟩ (0 : Fin 2) * 8000 ≤ (i 0).val
      ∧ (i 0).val < win1_4.index ⟨(i 0).val / 8000, hlt⟩ (0 : Fin 2) * 8000 + 8000
    rw [e40]
    show (i 0).val / 8000 * 8000 ≤ (i 0).val ∧ (i 0).val < (i 0).val / 8000 * 8000 + 8000
    omega
  | ⟨1, _⟩ =>
    show win1_4.index ⟨(i 0).val / 8000, hlt⟩ (1 : Fin 2) * 1 ≤ (i 1).val
      ∧ (i 1).val < win1_4.index ⟨(i 0).val / 8000, hlt⟩ (1 : Fin 2) * 1 + 1
    rw [e41]
    omega

/-- The result array after the node grid: the updates of the arrays the grid was entered with. -/
theorem node_final (c : Dev nD) :
    (dat1 V c).arrAt 4 cfg1.N = nodeUpd (V c main_arg0) (V c main_v6) (V c main_arg5) (V c main_v7) :=
  (dat1 V c).arrAt_eq_of_cover 4 _ (fun t _ => node_flushed V c t) node_cover

end Cert.KernelIdeal.Blocks

end
-- ==== Proof.KernelRun.lean ====
/-
  The kernel program's run, with its result array named and read back to the launch arrays.

  The program is four stretches in order: the bias of the edge stage reshaped to a 1×1 matrix; the edge grid; the
  target-node row of the edge list cut out and laid as a column, a zero array, the messages added into it at their
  target nodes, and the bias of the node stage reshaped; the node grid. The buffer contents at the four boundaries
  form a chain, each link a function of the one before: a stretch of array operations applies them, a grid replaces
  its output array by what its points wrote. Every weakly fair execution terminates in a memory whose buffers hold
  the last link; this module keeps the result array in that statement, and then walks the chain backwards:
  the result is the node update (`Cert.Spec.nodeUpd`) of the features, of the aggregate of the messages
  (`Cert.Spec.edgeMsg`) of the edge attributes, and of the weights and biases as launched.
-/
import proofs.«166425_j85306640433889_2_alg».proof.Proof.Gen.KernelIdeal.Frame
import proofs.«166425_j85306640433889_2_alg».proof.Proof.KernelBlocks
import Idealize.ShloMosaic.Lib.StableHlo.Run

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo
open Cert.Spec

section AnyFloats

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the result array holding the last link of
    the chain of boundary contents and the argument arrays as launched. The four stretches chain from the launch
    memory to the last boundary; what is read of the final memory is every buffer at the last boundary's contents,
    of which the result array is one and the arguments are seven. -/
theorem run_result : θ_run defs (onTc (τ := τ) (main (F := F))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v8 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end AnyFloats

/-! ## The chain of boundary contents, walked back to the launch arrays (over the extended reals) -/

section Ideal

variable (m : (ℓ : Loc nD τ sig) → Buf (Elt Ideal) ℓ) (ρ : Dev nD → PrngReg)

/-- The messages added into a zero array at their target nodes: the target row of the edge list cut out, laid flat
    and then as a column of indices; the scatter-add of the messages at those indices into zeros. -/
def aggregate (idx : (⟨S2x16000000, .i32⟩ : BufTy).Contents (Elt Ideal)) (msg : (⟨S16000000x1, .f32⟩ : BufTy).Contents (Elt Ideal)) :
    (⟨S1000000x1, .f32⟩ : BufTy).Contents (Elt Ideal) :=
  Host.scatterAdd scatter_S1000000x1_S16000000x1_S16000000x1_1_0_0_1
    (broadcastInDim S1000000x1 ![] bcast_S_S1000000x1 (constant (F := Ideal) S_ .f32 0x00000000#32))
    (broadcastInDim S16000000x1 ![0] bcast_S16000000_S16000000x1_0
      (shapeCast _ (extractStridedSlice S1x16000000 ![1, 0] idx slices_S2x16000000_S1x16000000_1_0) shapeCasts_S1x16000000_S16000000))
    msg

/-! ### Before the edge grid: one reshape -/

/-- The edge stage's bias as the edge grid finds it: the launched bias as a 1×1 matrix. -/
theorem entry0_v0 (c : Dev nD) :
    V1 m ρ c main_v0 = shapeCast S1x1 (m ((c : Thread nD τ).loc main_arg4)) shapeCasts_S1_S1x1 := by
  show StableHlo.after hostOps0 (W0 m ρ c) (Proc.devRef .tc main_v0) = _
  after_results <;> rfl

/-- The reshape writes no argument: each is found as launched. -/
theorem entry0_arg0 (c : Dev nD) : V1 m ρ c main_arg0 = m ((c : Thread nD τ).loc main_arg0) := by
  show StableHlo.after hostOps0 (W0 m ρ c) (Proc.devRef .tc main_arg0) = _
  after_results <;> rfl
theorem entry0_arg1 (c : Dev nD) : V1 m ρ c main_arg1 = m ((c : Thread nD τ).loc main_arg1) := by
  show StableHlo.after hostOps0 (W0 m ρ c) (Proc.devRef .tc main_arg1) = _
  after_results <;> rfl
theorem entry0_arg2 (c : Dev nD) : V1 m ρ c main_arg2 = m ((c : Thread nD τ).loc main_arg2) := by
  show StableHlo.after hostOps0 (W0 m ρ c) (Proc.devRef .tc main_arg2) = _
  after_results <;> rfl
theorem entry0_arg3 (c : Dev nD) : V1 m ρ c main_arg3 = m ((c : Thread nD τ).loc main_arg3) := by
  show StableHlo.after hostOps0 (W0 m ρ c) (Proc.devRef .tc main_arg3) = _
  after_results <;> rfl
theorem entry0_arg5 (c : Dev nD) : V1 m ρ c main_arg5 = m ((c : Thread nD τ).loc main_arg5) := by
  show StableHlo.after hostOps0 (W0 m ρ c) (Proc.devRef .tc main_arg5) = _
  after_results <;> rfl
theorem entry0_arg6 (c : Dev nD) : V1 m ρ c main_arg6 = m ((c : Thread nD τ).loc main_arg6) := by
  show StableHlo.after hostOps0 (W0 m ρ c) (Proc.devRef .tc main_arg6) = _
  after_results <;> rfl

/-! ### After the edge grid: the message array is the messages of the launched arrays; the rest is as before -/

theorem exit0_v1 (c : Dev nD) :
    V2 m ρ c main_v1 = edgeMsg (m ((c : Thread nD τ).loc main_arg2)) (m ((c : Thread nD τ).loc main_arg3))
      (shapeCast S1x1 (m ((c : Thread nD τ).loc main_arg4)) shapeCasts_S1_S1x1) := by
  refine (W2_arr m ρ c 3).trans ((Blocks.edge_final (V1 m ρ) c).trans ?_)
  rw [entry0_arg2, entry0_arg3, entry0_v0]

theorem exit0_arg0 (c : Dev nD) : V2 m ρ c main_arg0 = m ((c : Thread nD τ).loc main_arg0) :=
  (W2_of_ne m ρ c main_arg0 (by decide)).trans (entry0_arg0 m ρ c)
theorem exit0_arg1 (c : Dev nD) : V2 m ρ c main_arg1 = m ((c : Thread nD τ).loc main_arg1) :=
  (W2_of_ne m ρ c main_arg1 (by decide)).trans (entry0_arg1 m ρ c)
theorem exit0_arg5 (c : Dev nD) : V2 m ρ c main_arg5 = m ((c : Thread nD τ).loc main_arg5) :=
  (W2_of_ne m ρ c main_arg5 (by decide)).trans (entry0_arg5 m ρ c)
theorem exit0_arg6 (c : Dev nD) : V2 m ρ c main_arg6 = m ((c : Thread nD τ).loc main_arg6) :=
  (W2_of_ne m ρ c main_arg6 (by decide)).trans (entry0_arg6 m ρ c)

/-! ### Before the node grid: the aggregate of the messages, and the node stage's bias reshaped -/

theorem entry1_arg0 (c : Dev nD) : V3 m ρ c main_arg0 = m ((c : Thread nD τ).loc main_arg0) := by
  show StableHlo.after hostOps1 (W2 m ρ c) (Proc.devRef .tc main_arg0) = _
  after_results
  exact exit0_arg0 m ρ c
theorem entry1_arg5 (c : Dev nD) : V3 m ρ c main_arg5 = m ((c : Thread nD τ).loc main_arg5) := by
  show StableHlo.after hostOps1 (W2 m ρ c) (Proc.devRef .tc main_arg5) = _
  after_results
  exact exit0_arg5 m ρ c

theorem entry1_v7 (c : Dev nD) :
    V3 m ρ c main_v7 = shapeCast S1x1 (m ((c : Thread nD τ).loc main_arg6)) shapeCasts_S1_S1x1 := by
  show StableHlo.after hostOps1 (W2 m ρ c) (Proc.devRef .tc main_v7) = _
  after_results
  rw [show W2 m ρ c (Proc.devRef .tc main_arg6) = m ((c : Thread nD τ).loc main_arg6) from exit0_arg6 m ρ c]
  rfl

theorem entry1_v6 (c : Dev nD) :
    V3 m ρ c main_v6 = aggregate (m ((c : Thread nD τ).loc main_arg1))
      (edgeMsg (m ((c : Thread nD τ).loc main_arg2)) (m ((c : Thread nD τ).loc main_arg3))
        (shapeCast S1x1 (m ((c : Thread nD τ).loc main_arg4)) shapeCasts_S1_S1x1)) := by
  show StableHlo.after hostOps1 (W2 m ρ c) (Proc.devRef .tc main_v6) = _
  after_results
  rw [show W2 m ρ c (Proc.devRef .tc main_arg1) = m ((c : Thread nD τ).loc main_arg1) from exit0_arg1 m ρ c,
    show W2 m ρ c (Proc.devRef .tc main_v1) = _ from exit0_v1 m ρ c]
  rfl

/-! ### After the node grid: the result -/

/-- The result array at the end of the chain is the node update of the launched features, of the aggregate of the
    messages of the launched edge attributes, and of the launched weights and biases. -/
theorem result_value (c : Dev nD) :
    W4 m ρ c (Proc.devRef .tc main_v8)
      = nodeUpd (m ((c : Thread nD τ).loc main_arg0))
          (aggregate (m ((c : Thread nD τ).loc main_arg1))
            (edgeMsg (m ((c : Thread nD τ).loc main_arg2)) (m ((c : Thread nD τ).loc main_arg3))
              (shapeCast S1x1 (m ((c : Thread nD τ).loc main_arg4)) shapeCasts_S1_S1x1)))
          (m ((c : Thread nD τ).loc main_arg5))
          (shapeCast S1x1 (m ((c : Thread nD τ).loc main_arg6)) shapeCasts_S1_S1x1) := by
  refine (W4_arr m ρ c 4).trans ((Blocks.node_final (V3 m ρ) c).trans ?_)
  rw [entry1_arg0, entry1_v6, entry1_arg5, entry1_v7]

/-- The run, with the result array as that function of the launch arrays and the arguments unchanged. -/
theorem run_value : θ_run defs (onTc (τ := τ) (main (F := Ideal))) ⟨m, fun _ => 0, ρ⟩ (fun r => ∀ c : Dev nD,
      r.2.mem ((c.tc : Thread nD τ).loc main_v8)
        = nodeUpd (m ((c : Thread nD τ).loc main_arg0))
            (aggregate (m ((c : Thread nD τ).loc main_arg1))
              (edgeMsg (m ((c : Thread nD τ).loc main_arg2)) (m ((c : Thread nD τ).loc main_arg3))
                (shapeCast S1x1 (m ((c : Thread nD τ).loc main_arg4)) shapeCasts_S1_S1x1)))
            (m ((c : Thread nD τ).loc main_arg5))
            (shapeCast S1x1 (m ((c : Thread nD τ).loc main_arg6)) shapeCasts_S1_S1x1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_value m ρ c), (h c).2⟩) (run_result m ρ)

end Ideal

end Cert.KernelIdeal.Run

end
-- ==== Proof.LibJoinedColumn.lean ====
/-
  A matrix with one more column joined on its right, read at an index given by coordinates.

  Joining an `[n, a]` matrix `X` and an `[n, 1]` column `Y` along the columns gives an `[n, b]` matrix (with
  `b = a + 1`, which the joining's own side condition carries). Its entry `(p, k)` is `X (p, k)` for `k < a` and
  `Y (p, 0)` for `k = a`: the library's two-piece lemmas with the coordinates' arithmetic done.
-/
import Idealize.ShloMosaic.Lib.Pipeline.Value
import Idealize.ShloMosaic.Lib.ValueIdx

namespace Cert.JoinedColumn

open Idealize.ShloMosaic Idealize.ShloMosaic.ValueIdx

variable {α : Type}

/-- Left of the joint the joined matrix is the matrix. -/
theorem joined_left {n a b : Nat} (X : (⟨2, ![n, a]⟩ : Shape).Idx → α) (Y : (⟨2, ![n, 1]⟩ : Shape).Idx → α)
    (h : Shape.Concatenates [(⟨2, ![n, a]⟩ : Shape), (⟨2, ![n, 1]⟩ : Shape)] (⟨2, ![n, b]⟩ : Shape) (1 : Fin 2))
    (p : Fin n) (k : Nat) (hk : k < a) (hkb : k < b) :
    concatenate (⟨2, ![n, b]⟩ : Shape) (1 : Fin 2) [⟨(⟨2, ![n, a]⟩ : Shape), X⟩, ⟨(⟨2, ![n, 1]⟩ : Shape), Y⟩] h
        (ix2 p (⟨k, hkb⟩ : Fin b))
      = X (ix2 p (⟨k, hk⟩ : Fin a)) :=
  concatenate_pair_apply_left (t := (⟨2, ![n, b]⟩ : Shape)) (s₁ := (⟨2, ![n, a]⟩ : Shape)) (s₂ := (⟨2, ![n, 1]⟩ : Shape))
    (1 : Fin 2) X Y h (ix2 p (⟨k, hkb⟩ : Fin b)) rfl (ix2 p (⟨k, hk⟩ : Fin a))
    (fun d => match d with | ⟨0, _⟩ => rfl | ⟨1, _⟩ => rfl)

/-- At the joint the joined matrix is the column. -/
theorem joined_right {n a b : Nat} (X : (⟨2, ![n, a]⟩ : Shape).Idx → α) (Y : (⟨2, ![n, 1]⟩ : Shape).Idx → α)
    (h : Shape.Concatenates [(⟨2, ![n, a]⟩ : Shape), (⟨2, ![n, 1]⟩ : Shape)] (⟨2, ![n, b]⟩ : Shape) (1 : Fin 2))
    (p : Fin n) (hab : a < b) :
    concatenate (⟨2, ![n, b]⟩ : Shape) (1 : Fin 2) [⟨(⟨2, ![n, a]⟩ : Shape), X⟩, ⟨(⟨2, ![n, 1]⟩ : Shape), Y⟩] h
        (ix2 p (⟨a, hab⟩ : Fin b))
      = Y (ix2 p (0 : Fin 1)) :=
  concatenate_pair_apply_right (t := (⟨2, ![n, b]⟩ : Shape)) (s₁ := (⟨2, ![n, a]⟩ : Shape)) (s₂ := (⟨2, ![n, 1]⟩ : Shape))
    (1 : Fin 2) X Y h (ix2 p (⟨a, hab⟩ : Fin b)) rfl rfl (ix2 p (0 : Fin 1))
    (fun d hd => match d, hd with
      | ⟨0, _⟩, _ => rfl
      | ⟨1, _⟩, hd => absurd rfl hd)
    (by show 0 + a = a; omega)

end Cert.JoinedColumn
-- ==== Proof.RefValue.lean ====
/-
  The reference program's stages are the specification's functions.

  The reference computes the messages as a contraction of the edge attributes with the weight column plus the bias
  spread over the edges, and the update as a contraction of the features joined with the scaled aggregate against the
  five weights, plus the bias, plus the first feature. Over the extended reals a contraction over three (five) terms
  is the sum of its three (five) products in order, which is how the specification (`Cert.Spec.edgeMsg`,
  `Cert.Spec.nodeUpd`) writes it; the joined matrix's first four columns are the features and its fifth is the scaled
  aggregate; and a one-entry bias spread over the rows is that entry, as is its reshape to a 1×1 matrix.
-/
import proofs.«166425_j85306640433889_2_alg».proof.Proof.Gen.ReferenceIdeal.Read
import proofs.«166425_j85306640433889_2_alg».proof.Proof.Spec
import proofs.«166425_j85306640433889_2_alg».proof.Proof.LibJoinedColumn
import Idealize.ShloMosaic.Lib.ValueLayout

noncomputable section

namespace Cert.ReferenceIdeal.RefValue

open Cert.ReferenceIdeal Cert.ReferenceIdeal.Read Idealize.ShloMosaic Idealize.ShloMosaic.ValueIdx
open Cert.Spec Cert.JoinedColumn

/-- An index of a one-entry array is its only index. -/
theorem idx1_eq (i : (⟨1, ![1]⟩ : Shape).Idx) : i = ix1 (0 : Fin 1) :=
  (eq_ix1 i).trans (congrArg ix1 (Fin.ext (by have h : (i 0).val < 1 := (i 0).isLt; show (i 0).val = 0; omega)))

/-- A one-entry array read anywhere is the one entry of its reshape to a 1×1 matrix. -/
theorem bias_eq (x : (⟨1, ![1]⟩ : Shape).Idx → EReal) (h : (⟨1, ![1]⟩ : Shape).ShapeCasts ⟨2, ![1, 1]⟩)
    (i : (⟨1, ![1]⟩ : Shape).Idx) :
    x i = shapeCast (⟨2, ![1, 1]⟩ : Shape) x h (ix2 (0 : Fin 1) (0 : Fin 1)) :=
  (congrArg x (idx1_eq i)).trans (shapeCast_a_1a_apply x h 0 0).symm

/-- The reference's messages are the specification's, the bias read as its 1×1 reshape. -/
theorem msg_eq (x2 : (⟨S16000000x3, .f32⟩ : BufTy).Contents (Elt Ideal)) (x3 : (⟨S3x1, .f32⟩ : BufTy).Contents (Elt Ideal))
    (x4 : (⟨S1, .f32⟩ : BufTy).Contents (Elt Ideal)) (h : (⟨1, ![1]⟩ : Shape).ShapeCasts ⟨2, ![1, 1]⟩) :
    val_main_v3 (F := Ideal) x2 x3 x4 = edgeMsg x2 x3 (shapeCast (⟨2, ![1, 1]⟩ : Shape) x4 h) := by
  funext i
  obtain ⟨p, q, rfl⟩ : ∃ (p : Fin 16000000) (q : Fin 1), i = ix2 p q := ⟨i 0, i 1, eq_ix2 i⟩
  obtain rfl : q = 0 := Subsingleton.elim _ _
  have hl : ∀ k : Fin 3, lidx_main_v0 (ix2 p (0 : Fin 1)) k = ix2 p k := fun k => funext fun a => by
    match a with
    | ⟨0, _⟩ => rfl
    | ⟨1, _⟩ => rfl
  have hr : ∀ k : Fin 3, ridx_main_v0 (ix2 p (0 : Fin 1)) k = ix2 k (0 : Fin 1) := fun k => funext fun a => by
    match a with
    | ⟨0, _⟩ => rfl
    | ⟨1, _⟩ => rfl
  rw [val_main_v3_apply, val_main_v0_apply, val_main_v2_apply, val_main_v1_apply, Fin.sum_univ_three,
    hl, hl, hl, hr, hr, hr]
  refine Eq.trans ?_ (edgeMsg_row x2 x3 _ p).symm
  exact congrArg₂ (· + ·) rfl (bias_eq x4 h _)

/-- The reference's result is the specification's update of the features, of the reference's own aggregate, and of
    the weights, the bias read as its 1×1 reshape. -/
theorem out_eq (x0 : (⟨S1000000x4, .f32⟩ : BufTy).Contents (Elt Ideal)) (x1 : (⟨S2x16000000, .i32⟩ : BufTy).Contents (Elt Ideal))
    (x2 : (⟨S16000000x3, .f32⟩ : BufTy).Contents (Elt Ideal)) (x3 : (⟨S3x1, .f32⟩ : BufTy).Contents (Elt Ideal))
    (x4 : (⟨S1, .f32⟩ : BufTy).Contents (Elt Ideal)) (x5 : (⟨S5x1, .f32⟩ : BufTy).Contents (Elt Ideal))
    (x6 : (⟨S1, .f32⟩ : BufTy).Contents (Elt Ideal)) (h : (⟨1, ![1]⟩ : Shape).ShapeCasts ⟨2, ![1, 1]⟩) :
    val_main_v17 (F := Ideal) x0 x1 x2 x3 x4 x5 x6
      = nodeUpd x0 (val_main_v8 (F := Ideal) x1 x2 x3 x4) x5 (shapeCast (⟨2, ![1, 1]⟩ : Shape) x6 h) := by
  funext i
  obtain ⟨p, q, rfl⟩ : ∃ (p : Fin 1000000) (q : Fin 1), i = ix2 p q := ⟨i 0, i 1, eq_ix2 i⟩
  obtain rfl : q = 0 := Subsingleton.elim _ _
  have hl : ∀ k : Fin 5, lidx_main_v12 (ix2 p (0 : Fin 1)) k = ix2 p k := fun k => funext fun a => by
    match a with
    | ⟨0, _⟩ => rfl
    | ⟨1, _⟩ => rfl
  have hr : ∀ k : Fin 5, ridx_main_v12 (ix2 p (0 : Fin 1)) k = ix2 k (0 : Fin 1) := fun k => funext fun a => by
    match a with
    | ⟨0, _⟩ => rfl
    | ⟨1, _⟩ => rfl
  -- the joined matrix's first four columns are the features, its fifth the scaled aggregate
  have hc0 : val_main_v11 (F := Ideal) x0 x1 x2 x3 x4 (ix2 p (0 : Fin 5)) = x0 (ix2 p (0 : Fin 4)) :=
    joined_left x0 (val_main_v10 (F := Ideal) x0 x1 x2 x3 x4)
      Cert.ReferenceIdeal.Gen.concatenates_S1000000x4_S1000000x1_S1000000x5_d1 p 0 (by decide) (by decide)
  have hc1 : val_main_v11 (F := Ideal) x0 x1 x2 x3 x4 (ix2 p (1 : Fin 5)) = x0 (ix2 p (1 : Fin 4)) :=
    joined_left x0 (val_main_v10 (F := Ideal) x0 x1 x2 x3 x4)
      Cert.ReferenceIdeal.Gen.concatenates_S1000000x4_S1000000x1_S1000000x5_d1 p 1 (by decide) (by decide)
  have hc2 : val_main_v11 (F := Ideal) x0 x1 x2 x3 x4 (ix2 p (2 : Fin 5)) = x0 (ix2 p (2 : Fin 4)) :=
    joined_left x0 (val_main_v10 (F := Ideal) x0 x1 x2 x3 x4)
      Cert.ReferenceIdeal.Gen.concatenates_S1000000x4_S1000000x1_S1000000x5_d1 p 2 (by decide) (by decide)
  have hc3 : val_main_v11 (F := Ideal) x0 x1 x2 x3 x4 (ix2 p (3 : Fin 5)) = x0 (ix2 p (3 : Fin 4)) :=
    joined_left x0 (val_main_v10 (F := Ideal) x0 x1 x2 x3 x4)
      Cert.ReferenceIdeal.Gen.concatenates_S1000000x4_S1000000x1_S1000000x5_d1 p 3 (by decide) (by decide)
  have hc4 : val_main_v11 (F := Ideal) x0 x1 x2 x3 x4 (ix2 p (4 : Fin 5))
      = val_main_v10 (F := Ideal) x0 x1 x2 x3 x4 (ix2 p (0 : Fin 1)) :=
    joined_right x0 (val_main_v10 (F := Ideal) x0 x1 x2 x3 x4)
      Cert.ReferenceIdeal.Gen.concatenates_S1000000x4_S1000000x1_S1000000x5_d1 p (by decide)
  have h3 : val_main_v9 (F := Ideal) x0 (ix2 p (0 : Fin 1)) = x0 (ix2 p (3 : Fin 4)) :=
    (val_main_v9_apply (F := Ideal) x0 _).trans (congrArg x0 (funext fun a => by
      match a with
      | ⟨0, _⟩ => rfl
      | ⟨1, _⟩ => rfl))
  have h16 : val_main_v16 (F := Ideal) x0 (ix2 p (0 : Fin 1)) = x0 (ix2 p (0 : Fin 4)) :=
    (val_main_v16_apply (F := Ideal) x0 _).trans (congrArg x0 (funext fun a => by
      match a with
      | ⟨0, _⟩ => rfl
      | ⟨1, _⟩ => rfl))
  rw [val_main_v17_apply, val_main_v15_apply, val_main_v12_apply, val_main_v14_apply, val_main_v13_apply,
    Fin.sum_univ_five, hl, hl, hl, hl, hl, hr, hr, hr, hr, hr, hc0, hc1, hc2, hc3, hc4, val_main_v10_apply, h3, h16]
  -- from here on the aggregate is any array: it is never opened
  generalize val_main_v8 (F := Ideal) x1 x2 x3 x4 = A
  refine Eq.trans ?_ (nodeUpd_row x0 A x5 _ p).symm
  exact congrArg₂ (· + ·) rfl (congrArg₂ (· + ·) rfl (bias_eq x6 h _))

end Cert.ReferenceIdeal.RefValue

end
-- ==== Proof.lean ====
/-
  A message-passing step on a graph, computed two ways, gives the same result over the extended reals.

  The graph has 16,000,000 edges with three attributes each and 1,000,000 nodes with four features each. Both
  programs compute, for every edge `e`, the message
      msg(e) = ea(e,0)·w(0) + ea(e,1)·w(1) + ea(e,2)·w(2) + b,
  add the messages into a zero array at the edges' target nodes (the second row of the edge list), giving `aggr`, and
  return, for every node `v`,
      out(v) = x(v,0) + ( x(v,0)·u(0) + x(v,1)·u(1) + x(v,2)·u(2) + x(v,3)·u(3) + (aggr(v)·x(v,3))·u(4) + d ).
  One program computes the two affine forms in two grids of blocks of rows (16000 edges, resp. 8000 nodes, per
  point), each as a chain of products and sums; the other computes them as contractions over three and over five
  terms of whole arrays, the five-term one against the features joined with the scaled aggregate. A contraction over
  three or five terms is the sum of its products in order, which is the chain, term for term; the blocks tile the
  arrays; and the adding-in of the messages is one and the same operation applied to equal arguments. No law beyond
  these identities is used, so the finiteness of the inputs is not needed for the equality.

  The modules: `Spec` states the two affine forms; `KernelPayload`, `KernelBlocks`, `KernelRun` read the blocked
  program's result array as those forms of its launch arrays; `RefValue` does the same for the whole-array program;
  here the two are put side by side.
-/
import proofs.«166425_j85306640433889_2_alg».proof.Defs
import proofs.«166425_j85306640433889_2_alg».proof.Proof.Gen.Kernel
import proofs.«166425_j85306640433889_2_alg».proof.Proof.Gen.Kernel.Skeleton
import proofs.«166425_j85306640433889_2_alg».proof.Proof.Gen.Kernel.Launch
import proofs.«166425_j85306640433889_2_alg».proof.Proof.Gen.Kernel.Points
import proofs.«166425_j85306640433889_2_alg».proof.Proof.Gen.Kernel.Frame
import proofs.«166425_j85306640433889_2_alg».proof.Proof.Gen.KernelIdeal
import proofs.«166425_j85306640433889_2_alg».proof.Proof.Gen.KernelIdeal.Skeleton
import proofs.«166425_j85306640433889_2_alg».proof.Proof.Gen.KernelIdeal.Launch
import proofs.«166425_j85306640433889_2_alg».proof.Proof.Gen.KernelIdeal.Points
import proofs.«166425_j85306640433889_2_alg».proof.Proof.Gen.KernelIdeal.Frame
import proofs.«166425_j85306640433889_2_alg».proof.Proof.Gen.ReferenceIdeal
import proofs.«166425_j85306640433889_2_alg».proof.Proof.Gen.ReferenceIdeal.Run
import proofs.«166425_j85306640433889_2_alg».proof.Proof.Gen.ReferenceIdeal.Read
import proofs.«166425_j85306640433889_2_alg».proof.Proof.Gen.Pre_finite_inputs
import proofs.«166425_j85306640433889_2_alg».proof.Proof.KernelRun
import proofs.«166425_j85306640433889_2_alg».proof.Proof.RefValue
import Idealize.ShloMosaic.Adequacy
import Idealize.ShloMosaic.Init

noncomputable section

namespace Cert.Proof

open Idealize.ShloMosaic Idealize.ShloMosaic.TcCoe Idealize.SL.Sem

/-- The word-level program runs to the end with its arguments unchanged. -/
theorem frame_kernel : Cert.frame_Kernel := fun m ρ _ => Cert.Kernel.Gen.frame m ρ

/-- So does the blocked program over the extended reals. -/
theorem frame_kernel_ideal : Cert.frame_KernelIdeal := fun m ρ _ => Cert.KernelIdeal.Gen.frame m ρ

/-- And the whole-array program: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Reading the blocked program over the extended reals rewrote no operation: nothing to show. -/
theorem preserves : Cert.preserves_Kernel_KernelIdeal := trivial

/-- The whole-array program's result is the node update of the features, of the aggregate of the messages of the
    edge attributes, and of the weights and biases — the function the blocked program's result array holds. The
    aggregate is the same scatter-add of the same index column into the same zeros in both programs. -/
theorem reference_value (x0 : (⟨Cert.ReferenceIdeal.S1000000x4, .f32⟩ : BufTy).Contents (Elt Ideal))
    (x1 : (⟨Cert.ReferenceIdeal.S2x16000000, .i32⟩ : BufTy).Contents (Elt Ideal))
    (x2 : (⟨Cert.ReferenceIdeal.S16000000x3, .f32⟩ : BufTy).Contents (Elt Ideal))
    (x3 : (⟨Cert.ReferenceIdeal.S3x1, .f32⟩ : BufTy).Contents (Elt Ideal))
    (x4 : (⟨Cert.ReferenceIdeal.S1, .f32⟩ : BufTy).Contents (Elt Ideal))
    (x5 : (⟨Cert.ReferenceIdeal.S5x1, .f32⟩ : BufTy).Contents (Elt Ideal))
    (x6 : (⟨Cert.ReferenceIdeal.S1, .f32⟩ : BufTy).Contents (Elt Ideal)) :
    Cert.ReferenceIdeal.Read.val_main_v17 (F := Ideal) x0 x1 x2 x3 x4 x5 x6
      = Cert.Spec.nodeUpd x0
          (Cert.KernelIdeal.Run.aggregate x1
            (Cert.Spec.edgeMsg x2 x3 (shapeCast Cert.KernelIdeal.S1x1 x4 Cert.KernelIdeal.Gen.shapeCasts_S1_S1x1)))
          x5 (shapeCast Cert.KernelIdeal.S1x1 x6 Cert.KernelIdeal.Gen.shapeCasts_S1_S1x1) := by
  rw [Cert.ReferenceIdeal.RefValue.out_eq x0 x1 x2 x3 x4 x5 x6 Cert.KernelIdeal.Gen.shapeCasts_S1_S1x1]
  -- the update is the same function on both sides: what is left is the aggregate, as a whole array
  refine congrArg (fun A => Cert.Spec.nodeUpd x0 A x5
    (shapeCast Cert.KernelIdeal.S1x1 x6 Cert.KernelIdeal.Gen.shapeCasts_S1_S1x1)) ?_
  unfold Cert.ReferenceIdeal.Read.val_main_v8 Cert.KernelIdeal.Run.aggregate
  rw [Cert.ReferenceIdeal.RefValue.msg_eq x2 x3 x4 Cert.KernelIdeal.Gen.shapeCasts_S1_S1x1]
  -- one scatter-add of the same messages at the same index column into the same zeros
  rfl

/-- From memories agreeing on the arguments both programs run to the end, with equal result arrays. -/
theorem algebraic : Cert.algebraic_KernelIdeal_ReferenceIdeal := by
  intro m ρ m' ρ' _ hagree
  refine ⟨_, Cert.KernelIdeal.Run.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [h0, h1, h2, h3, h4, h5, h6, Cert.ReferenceIdeal.Read.val_main_v17_eq]
  exact reference_value _ _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
